-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S8192x2048 : Shape := ⟨2, ![8192, 2048]⟩
abbrev S8192 : Shape := ⟨1, ![8192]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg4 : FVec F S8192 .f32) (main_arg5 : FVec F S8192 .f32) (main_v13 : IVec S_ 1) (main_v16 : IVec S8192 1) : IVec S_ 1 :=
  let main_c_5 : IVec S_ 1 := constantI S_ 1 1#1
  let main_v17 : IVec S_ 1 := (fun x v => Host.reduce IntOp.andi x v reducesTo_S8192_S_d0 h_S_) main_v16 main_c_5
  let main_v18 : IVec S_ 1 := andi main_v13 main_v17
  let main_v19 : FVec F S8192 .f32 := Host.absf main_arg4
  let main_cst_6 : FVec F S_ .f32 := constant S_ .f32 0x7F800000#32
  let main_v20 : FVec F S8192 .f32 := broadcastInDim S8192 ![] bcast_S_S8192 main_cst_6
  let main_v21 : IVec S8192 1 := cmpf .olt main_v19 main_v20
  let main_c_7 : IVec S_ 1 := constantI S_ 1 1#1
  let main_v22 : IVec S_ 1 := (fun x v => Host.reduce IntOp.andi x v reducesTo_S8192_S_d0 h_S_) main_v21 main_c_7
  let main_v23 : IVec S_ 1 := andi main_v18 main_v22
  let main_v24 : FVec F S8192 .f32 := Host.absf main_arg5
  let main_cst_8 : FVec F S_ .f32 := constant S_ .f32 0x7F800000#32
  let main_v25 : FVec F S8192 .f32 := broadcastInDim S8192 ![] bcast_S_S8192 main_cst_8
  let main_v26 : IVec S8192 1 := cmpf .olt main_v24 main_v25
  let main_c_9 : IVec S_ 1 := constantI S_ 1 1#1
  let main_v27 : IVec S_ 1 := (fun x v => Host.reduce IntOp.andi x v reducesTo_S8192_S_d0 h_S_) main_v26 main_c_9
  let main_v28 : IVec S_ 1 := andi main_v23 main_v27
  main_v28

def fn {F : FTy → Type} [FloatOps F] (main_arg0 : FVec F S4096x2048 .f32) (main_arg1 : FVec F S8192x2048 .f32) (main_arg2 : FVec F S8192 .f32) (main_arg3 : FVec F S8192 .f32) (main_arg4 : FVec F S8192 .f32) (main_arg5 : FVec F S8192 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S8192 .f32 := Host.absf main_arg3
  let main_cst_4 : FVec F S_ .f32 := constant S_ .f32 0x7F800000#32
  let main_v15 : FVec F S8192 .f32 := broadcastInDim S8192 ![] bcast_S_S8192 main_cst_4
  let main_v16 : IVec S8192 1 := cmpf .olt main_v14 main_v15
  fn_part1 (F := F) main_arg4 main_arg5 main_v13 main_v16
-- ==== Kernel.lean ====
abbrev S4096x2048 : Shape := ⟨2, ![4096, 2048]⟩
abbrev S8192x2048 : Shape := ⟨2, ![8192, 2048]⟩
abbrev S8192 : Shape := ⟨1, ![8192]⟩
abbrev S2048x8192 : Shape := ⟨2, ![2048, 8192]⟩
abbrev S4096x8192 : Shape := ⟨2, ![4096, 8192]⟩
abbrev S1024x2048 : Shape := ⟨2, ![1024, 2048]⟩
abbrev S2048x2048 : Shape := ⟨2, ![2048, 2048]⟩
abbrev S2048 : Shape := ⟨1, ![2048]⟩
abbrev S1x2048 : Shape := ⟨2, ![1, 2048]⟩
abbrev S1024x4x512 : Shape := ⟨3, ![1024, 4, 512]⟩
abbrev S1024x4 : Shape := ⟨2, ![1024, 4]⟩
abbrev S1024x4x1 : Shape := ⟨3, ![1024, 4, 1]⟩

abbrev nBuf : Space → Nat
  | .hbm => 10
  | .vmem => 14
  | .smem => 0
  | _ => 0

abbrev bufTy : (tb : Table) → Fin (tcTables nBuf tb) → BufTy
  | .hbm, ⟨0, _⟩ => ⟨S4096x2048, .f32⟩
  | .hbm, ⟨1, _⟩ => ⟨S8192x2048, .f32⟩
  | .hbm, ⟨2, _⟩ => ⟨S8192, .f32⟩
  | .hbm, ⟨3, _⟩ => ⟨S8192, .f32⟩
  | .hbm, ⟨4, _⟩ => ⟨S8192, .f32⟩
  | .hbm, ⟨5, _⟩ => ⟨S8192, .f32⟩
  | .hbm, ⟨6, _⟩ => ⟨S4096x2048, .bf16⟩
  | .hbm, ⟨7, _⟩ => ⟨S2048x8192, .f32⟩
  | .hbm, ⟨8, _⟩ => ⟨S2048x8192, .bf16⟩
  | .hbm, ⟨9, _⟩ => ⟨S4096x8192, .f32⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S2048x2048, .bf16⟩
  | .local _ .vmem, ⟨4, _⟩ => ⟨S2048, .f32⟩
  | .local _ .vmem, ⟨5, _⟩ => ⟨S2048, .f32⟩
  | .local _ .vmem, ⟨6, _⟩ => ⟨S2048, .f32⟩
  | .local _ .vmem, ⟨7, _⟩ => ⟨S2048, .f32⟩
  | .local _ .vmem, ⟨8, _⟩ => ⟨S2048, .f32⟩
  | .local _ .vmem, ⟨9, _⟩ => ⟨S2048, .f32⟩
  | .local _ .vmem, ⟨10, _⟩ => ⟨S2048, .f32⟩
  | .local _ .vmem, ⟨11, _⟩ => ⟨S2048, .f32⟩
  | .local _ .vmem, ⟨12, _⟩ => ⟨S1024x2048, .f32⟩
  | .local _ .vmem, ⟨13, _⟩ => ⟨S1024x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  bitsLt_bf16_f32 : FTy.bits .bf16 < FTy.bits .f32
  transposes_S8192x2048_S2048x8192_1_0 : S8192x2048.Transposes [1, 0] S2048x8192
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S1024x2048 : S1x2048.Broadcasts S1024x2048
  shapeCasts_S1024x2048_S1024x4x512 : S1024x2048.ShapeCasts S1024x4x512
  reduces_S1024x4x512_S1024x4 : S1024x4x512.Reduces [2] S1024x4
  shapeCasts_S1024x4_S1024x4x1 : S1024x4.ShapeCasts S1024x4x1
  broadcasts_S1024x4x1_S1024x4x512 : S1024x4x1.Broadcasts S1024x4x512
  shapeCasts_S1024x4x512_S1024x2048 : S1024x4x512.ShapeCasts S1024x2048
  dot_S1024x2048_S2048x2048_S1024x2048_1_0_0_1_n_n_wf : DotDims.WF S1024x2048 S2048x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S4096x2048.size a
  hwx0_0 : ∀ i : grid0.Coords, EltTy.bits .bf16 = 32 ∨ (Rect.block (s := S4096x2048) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x8192.size a
  hwx0_1 : ∀ i : grid0.Coords, EltTy.bits .bf16 = 32 ∨ (Rect.block (s := S2048x8192) S2048x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048.size a ≤ S8192.size a
  hwx0_2 : ∀ i : grid0.Coords, EltTy.bits .f32 = 32 ∨ (Rect.block (s := S8192) S2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048.size a ≤ S8192.size a
  hwx0_3 : ∀ i : grid0.Coords, EltTy.bits .f32 = 32 ∨ (Rect.block (s := S8192) S2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048.size a ≤ S8192.size a
  hwx0_4 : ∀ i : grid0.Coords, EltTy.bits .f32 = 32 ∨ (Rect.block (s := S8192) S2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048.size a ≤ S8192.size a
  hwx0_5 : ∀ i : grid0.Coords, EltTy.bits .f32 = 32 ∨ (Rect.block (s := S8192) S2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x2048.size a ≤ S4096x8192.size a
  hwx0_6 : ∀ i : grid0.Coords, EltTy.bits .f32 = 32 ∨ (Rect.block (s := S4096x8192) S1024x2048.size (cc0_transform_6 i) (hinb0_6 i)).WholeWords (EltTy.packing .f32)

variable [Facts₀]

def dot_S1024x2048_S2048x2048_S1024x2048_1_0_0_1_n_n : DotDims S1024x2048 S2048x2048 S1024x2048 where
  lhsContracting := [1]
  rhsContracting := [0]
  lhsNonContracting := [0]
  rhsNonContracting := [1]
  lhsBatch := []
  rhsBatch := []
  wf := dot_S1024x2048_S2048x2048_S1024x2048_1_0_0_1_n_n_wf

abbrev win0_0 : Pipeline.Window sig grid0 :=
  Pipeline.Window.ofSpec (Memref.whole main_v0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2048x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1024x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S8192x2048 : Shape := ⟨2, ![8192, 2048]⟩
abbrev S8192 : Shape := ⟨1, ![8192]⟩
abbrev S2048x8192 : Shape := ⟨2, ![2048, 8192]⟩
abbrev S4096x8192 : Shape := ⟨2, ![4096, 8192]⟩
abbrev S1x8192 : Shape := ⟨2, ![1, 8192]⟩
abbrev S4096x16x512 : Shape := ⟨3, ![4096, 16, 512]⟩
abbrev S_ : Shape := ⟨0, ![]⟩
abbrev S4096x16 : Shape := ⟨2, ![4096, 16]⟩
abbrev S4096x16x1 : Shape := ⟨3, ![4096, 16, 1]⟩

abbrev nBuf : Space → Nat
  | .hbm => 63
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S8192x2048, .f32⟩
  | .hbm, ⟨2, _⟩ => ⟨S8192, .f32⟩
  | .hbm, ⟨3, _⟩ => ⟨S8192, .f32⟩
  | .hbm, ⟨4, _⟩ => ⟨S8192, .f32⟩
  | .hbm, ⟨5, _⟩ => ⟨S8192, .f32⟩
  | .hbm, ⟨6, _⟩ => ⟨S2048x8192, .f32⟩
  | .hbm, ⟨7, _⟩ => ⟨S4096x8192, .f32⟩
  | .hbm, ⟨8, _⟩ => ⟨S1x8192, .f32⟩
  | .hbm, ⟨9, _⟩ => ⟨S4096x8192, .f32⟩
  | .hbm, ⟨10, _⟩ => ⟨S4096x8192, .f32⟩
  | .hbm, ⟨11, _⟩ => ⟨S4096x16x512, .f32⟩
  | .hbm, ⟨12, _⟩ => ⟨S_, .f32⟩
  | .hbm, ⟨13, _⟩ => ⟨S4096x16, .f32⟩
  | .hbm, ⟨14, _⟩ => ⟨S4096x16x1, .f32⟩
  | .hbm, ⟨15, _⟩ => ⟨S_, .f32⟩
  | .hbm, ⟨16, _⟩ => ⟨S4096x16x1, .f32⟩
  | .hbm, ⟨17, _⟩ => ⟨S4096x16x1, .f32⟩
  | .hbm, ⟨18, _⟩ => ⟨S4096x16x512, .f32⟩
  | .hbm, ⟨19, _⟩ => ⟨S4096x16x512, .f32⟩
  | .hbm, ⟨20, _⟩ => ⟨S4096x16x512, .f32⟩
  | .hbm, ⟨21, _⟩ => ⟨S_, .f32⟩
  | .hbm, ⟨22, _⟩ => ⟨S4096x16, .f32⟩
  | .hbm, ⟨23, _⟩ => ⟨S4096x16x1, .f32⟩
  | .hbm, ⟨24, _⟩ => ⟨S_, .f32⟩
  | .hbm, ⟨25, _⟩ => ⟨S4096x16x1, .f32⟩
  | .hbm, ⟨26, _⟩ => ⟨S4096x16x1, .f32⟩
  | .hbm, ⟨27, _⟩ => ⟨S4096x16x512, .f32⟩
  | .hbm, ⟨28, _⟩ => ⟨S4096x16x512, .f32⟩
  | .hbm, ⟨29, _⟩ => ⟨S_, .f32⟩
  | .hbm, ⟨30, _⟩ => ⟨S4096x16x1, .f32⟩
  | .hbm, ⟨31, _⟩ => ⟨S4096x16x1, .f32⟩
  | .hbm, ⟨32, _⟩ => ⟨S4096x16x1, .f32⟩
  | .hbm, ⟨33, _⟩ => ⟨S4096x16x512, .f32⟩
  | .hbm, ⟨34, _⟩ => ⟨S4096x16x512, .f32⟩
  | .hbm, ⟨35, _⟩ => ⟨S4096x8192, .f32⟩
  | .hbm, ⟨36, _⟩ => ⟨S1x8192, .f32⟩
  | .hbm, ⟨37, _⟩ => ⟨S4096x8192, .f32⟩
  | .hbm, ⟨38, _⟩ => ⟨S4096x8192, .f32⟩
  | .hbm, ⟨39, _⟩ => ⟨S1x8192, .f32⟩
  | .hbm, ⟨40, _⟩ => ⟨S4096x8192, .f32⟩
  | .hbm, ⟨41, _⟩ => ⟨S4096x8192, .f32⟩
  | .hbm, ⟨42, _⟩ => ⟨S4096x8192, .f32⟩
  | .hbm, ⟨43, _⟩ => ⟨S4096x8192, .f32⟩
  | .hbm, ⟨44, _⟩ => ⟨S_, .f32⟩
  | .hbm, ⟨45, _⟩ => ⟨S4096x8192, .f32⟩
  | .hbm, ⟨46, _⟩ => ⟨S4096x8192, .f32⟩
  | .hbm, ⟨47, _⟩ => ⟨S_, .f32⟩
  | .hbm, ⟨48, _⟩ => ⟨S4096x8192, .f32⟩
  | .hbm, ⟨49, _⟩ => ⟨S4096x8192, .f32⟩
  | .hbm, ⟨50, _⟩ => ⟨S4096x8192, .f32⟩
  | .hbm, ⟨51, _⟩ => ⟨S1x8192, .f32⟩
  | .hbm, ⟨52, _⟩ => ⟨S4096x8192, .f32⟩
  | .hbm, ⟨53, _⟩ => ⟨S4096x8192, .f32⟩
  | .hbm, ⟨54, _⟩ => ⟨S4096x8192, .f32⟩
  | .hbm, ⟨55, _⟩ => ⟨S4096x8192, .f32⟩
  | .hbm, ⟨56, _⟩ => ⟨S_, .f32⟩
  | .hbm, ⟨57, _⟩ => ⟨S4096x8192, .f32⟩
  | .hbm, ⟨58, _⟩ => ⟨S4096x8192, .f32⟩
  | .hbm, ⟨59, _⟩ => ⟨S_, .f32⟩
  | .hbm, ⟨60, _⟩ => ⟨S4096x8192, .f32⟩
  | .hbm, ⟨61, _⟩ => ⟨S4096x8192, .f32⟩
  | .hbm, ⟨62, _⟩ => ⟨S4096x8192, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_6 : Ref sig .tc := ⟨.hbm, 56, rfl⟩
abbrev main_v43 : Ref sig .tc := ⟨.hbm, 57, rfl⟩
abbrev main_v44 : Ref sig .tc := ⟨.hbm, 58, rfl⟩
abbrev main_cst_7 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩

abbrev nD : Nat := 1
abbrev τ : Topo := Topo.v7x

variable {F : FTy → Type} [FloatOps F]

class Facts₀ : Prop where
  transposes_S8192x2048_S2048x8192_1_0 : S8192x2048.Transposes [1, 0] S2048x8192
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  shapeCasts_S4096x8192_S4096x16x512 : S4096x8192.ShapeCasts S4096x16x512
  reducesTo_S4096x16x512_S4096x16_d2 : S4096x16x512.ReducesTo [2] S4096x16
  h_S_ : 0 < S_.numel
  bcast_S4096x16_S4096x16x1_0_1 : S4096x16.BroadcastsInDim S4096x16x1 (![0, 1] : Fin 2 → Fin S4096x16x1.rank)
  bcast_S_S4096x16x1 : S_.BroadcastsInDim S4096x16x1 (![] : Fin 0 → Fin S4096x16x1.rank)
  bcast_S4096x16x1_S4096x16x512_0_1_2 : S4096x16x1.BroadcastsInDim S4096x16x512 (![0, 1, 2] : Fin 3 → Fin S4096x16x512.rank)
  shapeCasts_S4096x16x512_S4096x8192 : S4096x16x512.ShapeCasts S4096x8192
  bcast_S_S4096x8192 : S_.BroadcastsInDim S4096x8192 (![] : Fin 0 → Fin S4096x8192.rank)
  dot_S4096x2048_S2048x8192_S4096x8192_1_0_0_1_n_n_wf : DotDims.WF S4096x2048 S2048x8192 S4096x8192 [1] [0] [0] [1] [] []

variable [Facts₀]

def dot_S4096x2048_S2048x8192_S4096x8192_1_0_0_1_n_n : DotDims S4096x2048 S2048x8192 S4096x8192 where
  lhsContracting := [1]
  rhsContracting := [0]
  lhsNonContracting := [0]
  rhsNonContracting := [1]
  lhsBatch := []
  rhsBatch := []
  wf := dot_S4096x2048_S2048x8192_S4096x8192_1_0_0_1_n_n_wf

class Facts : Prop extends Facts₀ where

variable [Facts]
-- ==== Proof.Spec.lean ====
/-
  The mathematics both programs compute, stated once over plain index types.

  A row of pre-activations is cut into groups of 512 consecutive entries. Within a group the entries are centred on
  the group's mean, scaled by the reciprocal square root of the group's variance plus a fixed word `epsv`, then each
  entry is sent through an affine map and two gated stages `u ↦ u · logistic u`, the second after a per-column factor.
  Everything is on the extended reals, operation by operation, in the order the programs apply them; no law of
  arithmetic is used, so no finiteness is needed.
-/
import Idealize.ShloMosaic.PureOps.Ideal
import Idealize.ShloMosaic.PureOps.Ideal.Laws
import Idealize.ShloMosaic.Lib.ValueIdx

noncomputable section

namespace Cert.GroupNormGate

open Idealize.ShloMosaic

/-- The divisor both programs write for the group size: the f32 word of 512. It is never evaluated. -/
abbrev c512 : EReal := Ideal.ofBits .f32 0x44000000#32
/-- The word both programs add to the variance. It is never evaluated. -/
abbrev epsv : EReal := Ideal.ofBits .f32 0x3727C5AC#32

variable {R NG : ℕ}

/-- The mean of group `g` of row `r`: the sum of its 512 entries divided by the group size. -/
def mean (y : Fin R → Fin NG → Fin 512 → EReal) (r : Fin R) (g : Fin NG) : EReal :=
  Ideal.div (∑ j : Fin 512, y r g j) c512

/-- The variance of group `g` of row `r`: the mean of the squared deviations from the group's mean. -/
def var (y : Fin R → Fin NG → Fin 512 → EReal) (r : Fin R) (g : Fin NG) : EReal :=
  Ideal.div (∑ j : Fin 512, (y r g j - mean y r g) * (y r g j - mean y r g)) c512

/-- Entry `j` of group `g` of row `r`, centred and scaled by `(var + epsv)^(-1/2)`. -/
def nrm (y : Fin R → Fin NG → Fin 512 → EReal) (r : Fin R) (g : Fin NG) (j : Fin 512) : EReal :=
  (y r g j - mean y r g) * Ideal.rsqrt (var y r g + epsv)

/-- The affine map `v · gw + gb`, the gate `u · logistic u`, the column factor `mw`, and the gate again. -/
def act (v gw gb mw : EReal) : EReal :=
  (((v * gw + gb) * Ideal.logistic (v * gw + gb)) * mw)
    * Ideal.logistic (((v * gw + gb) * Ideal.logistic (v * gw + gb)) * mw)

/-- The normalized entry depends only on the entries of its own group in its own row: two families that agree
    along maps of rows and of groups have the same normalized entries along those maps. -/
theorem nrm_restrict {R' NG' : ℕ} (y : Fin R → Fin NG → Fin 512 → EReal) (y' : Fin R' → Fin NG' → Fin 512 → EReal)
    (fr : Fin R' → Fin R) (fg : Fin NG' → Fin NG) (h : ∀ p g j, y' p g j = y (fr p) (fg g) j)
    (p : Fin R') (g : Fin NG') (j : Fin 512) : nrm y' p g j = nrm y (fr p) (fg g) j := by
  unfold nrm var mean
  simp only [h]

/-! ## The whole arrays -/

open Idealize.ShloMosaic.ValueIdx

/-- Column `j` of group `g`, among the 8192 columns of sixteen groups. -/
def col16 (g : Fin 16) (j : Fin 512) : Fin 8192 := ⟨g.val * 512 + j.val, by omega⟩
/-- The group a column lies in, and its place in the group. -/
def grp16 (n : Fin 8192) : Fin 16 := ⟨n.val / 512, by omega⟩
def lane16 (n : Fin 8192) : Fin 512 := ⟨n.val % 512, Nat.mod_lt _ (by decide)⟩

/-- The linear layer: row `r` of `x` against row `n` of `W`, plus the bias at `n`. -/
def lin (x : (⟨2, ![4096, 2048]⟩ : Shape).Idx → EReal) (W : (⟨2, ![8192, 2048]⟩ : Shape).Idx → EReal)
    (b : (⟨1, ![8192]⟩ : Shape).Idx → EReal) (r : Fin 4096) (n : Fin 8192) : EReal :=
  (∑ k : Fin 2048, x (ix2 r k) * W (ix2 n k)) + b (ix1 n)

/-- The linear layer's rows cut into sixteen groups of 512 columns. -/
def pre (x : (⟨2, ![4096, 2048]⟩ : Shape).Idx → EReal) (W : (⟨2, ![8192, 2048]⟩ : Shape).Idx → EReal)
    (b : (⟨1, ![8192]⟩ : Shape).Idx → EReal) : Fin 4096 → Fin 16 → Fin 512 → EReal :=
  fun r g j => lin x W b r (col16 g j)

/-- THE RESULT, index by index: the linear layer's rows, normalized in sixteen groups of 512 columns, then the
    affine map and the two gates with the per-column parameters. -/
def G (x : (⟨2, ![4096, 2048]⟩ : Shape).Idx → EReal) (W : (⟨2, ![8192, 2048]⟩ : Shape).Idx → EReal)
    (b gw gb mw : (⟨1, ![8192]⟩ : Shape).Idx → EReal) : (⟨2, ![4096, 8192]⟩ : Shape).Idx → EReal := fun i =>
  act (nrm (pre x W b) (i 0) (grp16 (i 1)) (lane16 (i 1)))
    (gw (ix1 (i 1))) (gb (ix1 (i 1))) (mw (ix1 (i 1)))

/-! ## One block

  The kernel works on a block of 1024 rows by 2048 columns: four whole groups per row. The block's rows are rows
  `a · 1024 + p` of the array and its columns are columns `c · 2048 + q`, so its local group `g` is the array's group
  `c · 4 + g`, with the same 512 entries in the same places. -/

/-- Column `j` of local group `g`, among the block's 2048 columns. -/
def col4 (g : Fin 4) (j : Fin 512) : Fin 2048 := ⟨g.val * 512 + j.val, by omega⟩
/-- The local group a block column lies in, and its place in the group. -/
def grp4 (q : Fin 2048) : Fin 4 := ⟨q.val / 512, by omega⟩
def lane4 (q : Fin 2048) : Fin 512 := ⟨q.val % 512, Nat.mod_lt _ (by decide)⟩

/-- The linear layer on a block: a block of rows of `x` against a block of columns of `Wᵀ`, plus the bias block, cut into the
    block's four groups. -/
def preB (B0 : (⟨2, ![1024, 2048]⟩ : Shape).Idx → EReal) (B1 : (⟨2, ![2048, 2048]⟩ : Shape).Idx → EReal)
    (B2 : (⟨1, ![2048]⟩ : Shape).Idx → EReal) : Fin 1024 → Fin 4 → Fin 512 → EReal :=
  fun p g j => (∑ k : Fin 2048, B0 (ix2 p k) * B1 (ix2 k (col4 g j))) + B2 (ix1 (col4 g j))

/-- What the kernel's body makes of one block of each operand, index by index. -/
def GB (B0 : (⟨2, ![1024, 2048]⟩ : Shape).Idx → EReal) (B1 : (⟨2, ![2048, 2048]⟩ : Shape).Idx → EReal)
    (B2 B3 B4 B5 : (⟨1, ![2048]⟩ : Shape).Idx → EReal) : (⟨2, ![1024, 2048]⟩ : Shape).Idx → EReal := fun i =>
  act (nrm (preB B0 B1 B2) (i 0) (grp4 (i 1)) (lane4 (i 1))) (B3 (ix1 (i 1))) (B4 (ix1 (i 1))) (B5 (ix1 (i 1)))

/-- Row `p` of row block `a`, column `q` of column block `c`, group `g` of column block `c`. -/
def rowOf (a : Fin 4) (p : Fin 1024) : Fin 4096 := ⟨a.val * 1024 + p.val, by omega⟩
def colOf (c : Fin 4) (q : Fin 2048) : Fin 8192 := ⟨c.val * 2048 + q.val, by omega⟩
def grpOf (c : Fin 4) (g : Fin 4) : Fin 16 := ⟨c.val * 4 + g.val, by omega⟩

/-- THE BLOCK IS A BLOCK OF `G`. If the operand blocks are row block `a` of `x`, column block `c` of `Wᵀ` (that is, rows
    `c · 2048 + q` of `W`, transposed) and block `c` of each per-column vector, then the body's result at `(p, q)` is `G` at
    `(a · 1024 + p, c · 2048 + q)`: the column's group lies wholly inside the block, so its mean and variance are sums over
    the same 512 entries. -/
theorem block_eq (X : (⟨2, ![4096, 2048]⟩ : Shape).Idx → EReal) (W : (⟨2, ![8192, 2048]⟩ : Shape).Idx → EReal)
    (b gw gb mw : (⟨1, ![8192]⟩ : Shape).Idx → EReal)
    (B0 : (⟨2, ![1024, 2048]⟩ : Shape).Idx → EReal) (B1 : (⟨2, ![2048, 2048]⟩ : Shape).Idx → EReal)
    (B2 B3 B4 B5 : (⟨1, ![2048]⟩ : Shape).Idx → EReal) (a c : Fin 4)
    (h0 : ∀ (p : Fin 1024) (k : Fin 2048), B0 (ix2 p k) = X (ix2 (rowOf a p) k))
    (h1 : ∀ (k : Fin 2048) (q : Fin 2048), B1 (ix2 k q) = W (ix2 (colOf c q) k))
    (h2 : ∀ q : Fin 2048, B2 (ix1 q) = b (ix1 (colOf c q)))
    (h3 : ∀ q : Fin 2048, B3 (ix1 q) = gw (ix1 (colOf c q)))
    (h4 : ∀ q : Fin 2048, B4 (ix1 q) = gb (ix1 (colOf c q)))
    (h5 : ∀ q : Fin 2048, B5 (ix1 q) = mw (ix1 (colOf c q)))
    (p : Fin 1024) (q : Fin 2048) (I : (⟨2, ![4096, 8192]⟩ : Shape).Idx)
    (hI0 : (I 0).val = a.val * 1024 + p.val) (hI1 : (I 1).val = c.val * 2048 + q.val) :
    GB B0 B1 B2 B3 B4 B5 (ix2 p q) = G X W b gw gb mw I := by
  have hr : I 0 = rowOf a p := Fin.ext hI0
  have hc : I 1 = colOf c q := Fin.ext hI1
  have hpre : ∀ (p' : Fin 1024) (g : Fin 4) (j : Fin 512), preB B0 B1 B2 p' g j = pre X W b (rowOf a p') (grpOf c g) j := by
    intro p' g j
    have hcol : col16 (grpOf c g) j = colOf c (col4 g j) := Fin.ext (by
      show (c.val * 4 + g.val) * 512 + j.val = c.val * 2048 + (g.val * 512 + j.val); omega)
    unfold preB pre lin
    rw [hcol, h2]
    exact congrArg (· + _) (Finset.sum_congr rfl fun k _ => by rw [h0, h1])
  have hg : grp16 (colOf c q) = grpOf c (grp4 q) := Fin.ext (by
    have := q.isLt; have := c.isLt
    show (c.val * 2048 + q.val) / 512 = c.val * 4 + q.val / 512; omega)
  have hl : lane16 (colOf c q) = lane4 q := Fin.ext (by
    show (c.val * 2048 + q.val) % 512 = q.val % 512; omega)
  show act (nrm (preB B0 B1 B2) p (grp4 q) (lane4 q)) (B3 (ix1 q)) (B4 (ix1 q)) (B5 (ix1 q))
    = act (nrm (pre X W b) (I 0) (grp16 (I 1)) (lane16 (I 1))) (gw (ix1 (I 1))) (gb (ix1 (I 1))) (mw (ix1 (I 1)))
  rw [hr, hc, hg, hl, h3, h4, h5, nrm_restrict (pre X W b) (preB B0 B1 B2) (rowOf a) (grpOf c) hpre]

end Cert.GroupNormGate

end
-- ==== Proof.KernelBody.lean ====
/-
  The kernel body's arithmetic, read at an index of the block.

  The body multiplies a [1024, 2048] block of `x` by a [2048, 2048] block of `Wᵀ`, adds the bias block along the rows,
  views each row as four groups of 512 columns, takes each group's mean and variance as lane sums divided by 512, centres
  and scales by the reciprocal square root, views the groups as a row again, and applies the affine map and the two gates
  with the per-column blocks. Stage by stage, at explicit coordinates, this is `GB` of the loaded blocks.
-/
import proofs.«150082_j19688130085476_2_alg».proof.Proof.Gen.KernelIdeal.Skeleton
import proofs.«150082_j19688130085476_2_alg».proof.Proof.Spec
import Idealize.ShloMosaic.Lib.Pipeline.Value
import Idealize.ShloMosaic.Lib.ValueLayout
import Idealize.ShloMosaic.PureOps.Ideal.Laws

noncomputable section

namespace Cert.GroupNormGate.Body

open Cert.KernelIdeal Cert.KernelIdeal.Gen Idealize.ShloMosaic Idealize.ShloMosaic.ValueIdx Cert.GroupNormGate

/-! ## Layout operations of the body at coordinates -/

/-- A row of 2048 entries viewed as four groups of 512: entry `j` of group `g` is column `g · 512 + j`. -/
theorem groups_at (v : FVec Ideal S1024x2048 .f32) (p : Fin 1024) (g : Fin 4) (j : Fin 512) :
    shapeCast S1024x4x512 v shapeCasts_S1024x2048_S1024x4x512 (ix3 p g j) = v (ix2 p (col4 g j)) :=
  shapeCast_apply v _ (ix3 p g j) (ix2 p (col4 g j)) (by
    rw [Shape.rowMajor_val_two, Shape.rowMajor_val_three]
    show p.val * 2048 + (g.val * 512 + j.val) = (p.val * 4 + g.val) * 512 + j.val
    omega)

/-- The four groups viewed as a row again: column `q` is entry `q % 512` of group `q / 512`. -/
theorem ungroups_at (v : FVec Ideal S1024x4x512 .f32) (p : Fin 1024) (q : Fin 2048) :
    shapeCast S1024x2048 v shapeCasts_S1024x4x512_S1024x2048 (ix2 p q) = v (ix3 p (grp4 q) (lane4 q)) :=
  shapeCast_apply v _ (ix2 p q) (ix3 p (grp4 q) (lane4 q)) (by
    rw [Shape.rowMajor_val_two, Shape.rowMajor_val_three]
    show (p.val * 4 + q.val / 512) * 512 + q.val % 512 = p.val * 2048 + q.val
    omega)

/-- The sum over a group's 512 lanes. -/
theorem laneSum_at (src : FVec Ideal S1024x4x512 .f32) (p : Fin 1024) (g : Fin 4) :
    multiReduction (F := Ideal) .add [2] S1024x4 src 0x00000000#32 reduces_S1024x4x512_S1024x4 (.inl rfl) rfl (ix2 p g)
      = ∑ k : Fin 512, src (ix3 p g k) := by
  refine (Ideal.multiReduction_add_single src 0x00000000#32 reduces_S1024x4x512_S1024x4 (.inl rfl) rfl (ix2 p g)).trans ?_
  exact Finset.sum_congr rfl fun k _ => congrArg src (funext fun a => Fin.ext (by
    match a with | ⟨0, _⟩ => rfl | ⟨1, _⟩ => rfl | ⟨2, _⟩ => rfl))

/-- A per-group value put on a trailing unit axis. -/
theorem keep_at (v : FVec Ideal S1024x4 .f32) (p : Fin 1024) (g : Fin 4) (u : Fin 1) :
    shapeCast S1024x4x1 v shapeCasts_S1024x4_S1024x4x1 (ix3 p g u) = v (ix2 p g) :=
  shapeCast_apply v _ (ix3 p g u) (ix2 p g) (by
    have := u.isLt
    rw [Shape.rowMajor_val_two, Shape.rowMajor_val_three]
    show p.val * 4 + g.val = (p.val * 4 + g.val) * 1 + u.val
    omega)

/-- A per-group value spread over the group's 512 lanes. -/
theorem spread_at (v : FVec Ideal S1024x4x1 .f32) (p : Fin 1024) (g : Fin 4) (j : Fin 512) :
    broadcastTo S1024x4x512 v broadcasts_S1024x4x1_S1024x4x512 (ix3 p g j) = v (ix3 p g (0 : Fin 1)) :=
  broadcastTo_apply v _ (ix3 p g j) (ix3 p g (0 : Fin 1)) (fun a => by
    match a with
    | ⟨0, _⟩ => show p.val = if (1024 : ℕ) = 1 then 0 else p.val; rw [if_neg (by decide)]
    | ⟨1, _⟩ => show g.val = if (4 : ℕ) = 1 then 0 else g.val; rw [if_neg (by decide)]
    | ⟨2, _⟩ => show 0 = if (1 : ℕ) = 1 then 0 else j.val; rw [if_pos rfl])

/-- A per-column vector spread over the block's rows. -/
def rowB (v : Vec Ideal S2048 .f32) : FVec Ideal S1024x2048 .f32 :=
  broadcastTo S1024x2048 (shapeCast S1x2048 v shapeCasts_S2048_S1x2048) broadcasts_S1x2048_S1024x2048

theorem rowB_at (v : Vec Ideal S2048 .f32) (p : Fin 1024) (q : Fin 2048) : rowB v (ix2 p q) = v (ix1 q) :=
  (broadcastTo_1b_ab_apply _ broadcasts_S1x2048_S1024x2048 p q).trans
    (shapeCast_a_1a_apply v shapeCasts_S2048_S1x2048 0 q)

/-! ## The body's stages -/

variable (x0 : Vec Ideal S1024x2048 .bf16) (w0 : Vec Ideal S2048x2048 .bf16) (b0 g0 gb0 m0 : Vec Ideal S2048 .f32)

/-- The matrix product of the two blocks plus the bias row. -/
def lin8 : FVec Ideal S1024x2048 .f32 :=
  addf (matmul dot_S1024x2048_S2048x2048_S1024x2048_1_0_0_1_n_n none
      (shapeCast S1024x2048 x0 shapeCasts_S1024x2048_S1024x2048 : FVec Ideal S1024x2048 .bf16)
      (shapeCast S2048x2048 w0 shapeCasts_S2048x2048_S2048x2048 : FVec Ideal S2048x2048 .bf16)
      (constant S1024x2048 .f32 0x00000000#32)) (rowB b0)
/-- Its rows in four groups. -/
def grp9 : FVec Ideal S1024x4x512 .f32 := shapeCast S1024x4x512 (lin8 x0 w0 b0) shapeCasts_S1024x2048_S1024x4x512
/-- The groups' means. -/
def mean13 : FVec Ideal S1024x4x1 .f32 :=
  divf (shapeCast S1024x4x1 (multiReduction .add [2] S1024x4 (grp9 x0 w0 b0) 0x00000000#32 reduces_S1024x4x512_S1024x4 (.inl rfl) rfl)
      shapeCasts_S1024x4_S1024x4x1) (broadcast S1024x4x1 (Scalar.ofBits .f32 0x44000000#32))
/-- The centred entries. -/
def dev15 : FVec Ideal S1024x4x512 .f32 :=
  subf (grp9 x0 w0 b0) (broadcastTo S1024x4x512 (mean13 x0 w0 b0) broadcasts_S1024x4x1_S1024x4x512)
/-- The groups' variances. -/
def var20 : FVec Ideal S1024x4x1 .f32 :=
  divf (shapeCast S1024x4x1 (multiReduction .add [2] S1024x4 (mulf (dev15 x0 w0 b0) (dev15 x0 w0 b0)) 0x00000000#32
      reduces_S1024x4x512_S1024x4 (.inl rfl) rfl) shapeCasts_S1024x4_S1024x4x1) (broadcast S1024x4x1 (Scalar.ofBits .f32 0x44000000#32))
/-- The normalized entries. -/
def nrm27 : FVec Ideal S1024x4x512 .f32 :=
  mulf (dev15 x0 w0 b0) (broadcastTo S1024x4x512
    (rsqrt (addf (var20 x0 w0 b0) (broadcast S1024x4x1 (Scalar.ofBits .f32 0x3727C5AC#32)))) broadcasts_S1024x4x1_S1024x4x512)
/-- The affine map. -/
def aff36 : FVec Ideal S1024x2048 .f32 :=
  addf (mulf (shapeCast S1024x2048 (nrm27 x0 w0 b0) shapeCasts_S1024x4x512_S1024x2048) (rowB g0)) (rowB gb0)
/-- The first gate and the column factor. -/
def gate42 : FVec Ideal S1024x2048 .f32 :=
  mulf (mulf (aff36 x0 w0 b0 g0 gb0) (logistic (aff36 x0 w0 b0 g0 gb0))) (rowB m0)

/-- The body's stored value is the second gate over these stages: the printed operations, grouped. -/
theorem pay_eq : k0_pay1 (F := Ideal) (k0_pay2 x0 w0 b0 g0 gb0 m0) (k0_pay3 x0 w0 b0 g0 gb0 m0)
    = mulf (gate42 x0 w0 b0 g0 gb0 m0) (logistic (gate42 x0 w0 b0 g0 gb0 m0)) := rfl

/-! ## Each stage at coordinates -/

theorem lhs_0 (i : S1024x2048.Idx) (q : dot_S1024x2048_S2048x2048_S1024x2048_1_0_0_1_n_n.contr.Idx) :
    (dot_S1024x2048_S2048x2048_S1024x2048_1_0_0_1_n_n.lhsIdx i q 0).val = (i 0).val := by
  unfold DotDims.lhsIdx
  rw [dif_neg (show ¬(0 : Fin S1024x2048.rank) ∈ dot_S1024x2048_S2048x2048_S1024x2048_1_0_0_1_n_n.lhsBatch by decide),
    dif_pos (show (0 : Fin S1024x2048.rank) ∈ dot_S1024x2048_S2048x2048_S1024x2048_1_0_0_1_n_n.lhsNonContracting by decide)]
  rfl
theorem rhs_1 (i : S1024x2048.Idx) (q : dot_S1024x2048_S2048x2048_S1024x2048_1_0_0_1_n_n.contr.Idx) :
    (dot_S1024x2048_S2048x2048_S1024x2048_1_0_0_1_n_n.rhsIdx i q 1).val = (i 1).val := by
  unfold DotDims.rhsIdx
  rw [dif_neg (show ¬(1 : Fin S2048x2048.rank) ∈ dot_S1024x2048_S2048x2048_S1024x2048_1_0_0_1_n_n.rhsBatch by decide),
    dif_pos (show (1 : Fin S2048x2048.rank) ∈ dot_S1024x2048_S2048x2048_S1024x2048_1_0_0_1_n_n.rhsNonContracting by decide)]
  rfl

/-- The product's entry `(p, q)` is row `p` of the left block against column `q` of the right block. -/
theorem matmul_at (l : FVec Ideal S1024x2048 .bf16) (r : FVec Ideal S2048x2048 .bf16) (p : Fin 1024) (q : Fin 2048) :
    matmul dot_S1024x2048_S2048x2048_S1024x2048_1_0_0_1_n_n none l r (constant S1024x2048 .f32 0x00000000#32) (ix2 p q)
      = ∑ k : Fin 2048, l (ix2 p k) * r (ix2 k q) := by
  simp only [matmul]
  rw [Ideal.matmul_constant_zero_apply,
    ← Equiv.sum_comp (ValueIdx.contrEquiv1 dot_S1024x2048_S2048x2048_S1024x2048_1_0_0_1_n_n 2048 rfl rfl).symm]
  refine Finset.sum_congr rfl fun k _ => ?_
  have hk := ValueIdx.contrEquiv1_symm_val dot_S1024x2048_S2048x2048_S1024x2048_1_0_0_1_n_n 2048 rfl rfl k
  have el : dot_S1024x2048_S2048x2048_S1024x2048_1_0_0_1_n_n.lhsIdx (ix2 p q)
      ((ValueIdx.contrEquiv1 dot_S1024x2048_S2048x2048_S1024x2048_1_0_0_1_n_n 2048 rfl rfl).symm k) = ix2 p k :=
    funext fun a => Fin.ext (by
      match a with
      | ⟨0, _⟩ => exact lhs_0 _ _
      | ⟨1, _⟩ => exact (dot_S1024x2048_S2048x2048_S1024x2048_1_0_0_1_n_n.lhsIdx_val_of_single rfl _ _).trans hk)
  have er : dot_S1024x2048_S2048x2048_S1024x2048_1_0_0_1_n_n.rhsIdx (ix2 p q)
      ((ValueIdx.contrEquiv1 dot_S1024x2048_S2048x2048_S1024x2048_1_0_0_1_n_n 2048 rfl rfl).symm k) = ix2 k q :=
    funext fun a => Fin.ext (by
      match a with
      | ⟨0, _⟩ => exact (dot_S1024x2048_S2048x2048_S1024x2048_1_0_0_1_n_n.rhsIdx_val_of_single rfl _ _).trans hk
      | ⟨1, _⟩ => exact rhs_1 _ _)
  rw [el, er]

theorem lin8_at (p : Fin 1024) (q : Fin 2048) :
    lin8 x0 w0 b0 (ix2 p q) = (∑ k : Fin 2048, x0 (ix2 p k) * w0 (ix2 k q)) + b0 (ix1 q) := by
  unfold lin8
  rw [addf_apply, matmul_at, rowB_at, shapeCast_self, shapeCast_self]

theorem grp9_at (p : Fin 1024) (g : Fin 4) (j : Fin 512) : grp9 x0 w0 b0 (ix3 p g j) = preB x0 w0 b0 p g j := by
  unfold grp9
  rw [groups_at, lin8_at]
  rfl

theorem mean13_at (p : Fin 1024) (g : Fin 4) (u : Fin 1) : mean13 x0 w0 b0 (ix3 p g u) = mean (preB x0 w0 b0) p g := by
  unfold mean13
  rw [divf_apply, keep_at, laneSum_at]
  simp only [grp9_at]
  rfl

theorem dev15_at (p : Fin 1024) (g : Fin 4) (j : Fin 512) :
    dev15 x0 w0 b0 (ix3 p g j) = preB x0 w0 b0 p g j - mean (preB x0 w0 b0) p g := by
  unfold dev15
  rw [subf_apply, spread_at, mean13_at, grp9_at]

theorem var20_at (p : Fin 1024) (g : Fin 4) (u : Fin 1) : var20 x0 w0 b0 (ix3 p g u) = var (preB x0 w0 b0) p g := by
  unfold var20
  rw [divf_apply, keep_at, laneSum_at]
  simp only [mulf_apply, dev15_at]
  rfl

theorem nrm27_at (p : Fin 1024) (g : Fin 4) (j : Fin 512) : nrm27 x0 w0 b0 (ix3 p g j) = nrm (preB x0 w0 b0) p g j := by
  unfold nrm27
  rw [mulf_apply, spread_at, dev15_at]
  show _ * Ideal.rsqrt (var20 x0 w0 b0 (ix3 p g (0 : Fin 1)) + _) = _
  rw [var20_at]
  rfl

theorem aff36_at (p : Fin 1024) (q : Fin 2048) :
    aff36 x0 w0 b0 g0 gb0 (ix2 p q) = nrm (preB x0 w0 b0) p (grp4 q) (lane4 q) * g0 (ix1 q) + gb0 (ix1 q) := by
  unfold aff36
  rw [addf_apply, mulf_apply, ungroups_at, nrm27_at, rowB_at, rowB_at]

/-- THE BODY AT AN INDEX: what the body stores at `(p, q)` of the output block is `GB` of the loaded blocks there. -/
theorem body_at (p : Fin 1024) (q : Fin 2048) :
    k0_pay1 (F := Ideal) (k0_pay2 x0 w0 b0 g0 gb0 m0) (k0_pay3 x0 w0 b0 g0 gb0 m0) (ix2 p q)
      = GB x0 w0 b0 g0 gb0 m0 (ix2 p q) := by
  rw [pay_eq]
  show gate42 x0 w0 b0 g0 gb0 m0 (ix2 p q) * Ideal.logistic (gate42 x0 w0 b0 g0 gb0 m0 (ix2 p q)) = _
  have h : gate42 x0 w0 b0 g0 gb0 m0 (ix2 p q)
      = ((nrm (preB x0 w0 b0) p (grp4 q) (lane4 q) * g0 (ix1 q) + gb0 (ix1 q))
          * Ideal.logistic (nrm (preB x0 w0 b0) p (grp4 q) (lane4 q) * g0 (ix1 q) + gb0 (ix1 q))) * m0 (ix1 q) := by
    unfold gate42
    rw [mulf_apply, mulf_apply, rowB_at]
    show (aff36 x0 w0 b0 g0 gb0 (ix2 p q) * Ideal.logistic (aff36 x0 w0 b0 g0 gb0 (ix2 p q))) * _ = _
    rw [aff36_at]
  rw [h]
  rfl

end Cert.GroupNormGate.Body

end
-- ==== Proof.KernelValue.lean ====
/-
  From blocks to the whole array: after the kernel's run the result array is `G` of the argument arrays.

  The grid has 4 × 4 points. At the point with coordinates `(c, a)` the body sees row block `a` of `x` (cast to the
  narrow format, which changes nothing on the extended reals), column block `c` of the transposed `W`, block `c` of each
  of the four per-column vectors, and writes block `(a, c)` of the result. By `block_eq` that block is a block of `G`;
  the sixteen blocks tile the result array.
-/
import proofs.«150082_j19688130085476_2_alg».proof.Proof.Gen.KernelIdeal.Value
import proofs.«150082_j19688130085476_2_alg».proof.Proof.KernelBody
import Idealize.ShloMosaic.Lib.StableHlo.Run

set_option maxRecDepth 16384

noncomputable section

namespace Cert.GroupNormGate.Blocks

open Cert.KernelIdeal Cert.KernelIdeal.Gen Idealize.ShloMosaic Idealize.ShloMosaic.TcCoe Idealize.SL.Sem
open Idealize.ShloMosaic.ValueIdx Cert.GroupNormGate
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-! ## The arrays the region finds -/

/-- The first operand's array is `x` itself: the cast to the narrow format is the identity on the extended reals. -/
theorem V_v0 (c : Dev nD) : (V m c main_v0 : S4096x2048.Idx → EReal) = m ((c : Thread nD τ).loc main_arg0) := by
  dsimp only [V, hostOps0]; after_results; rfl

/-- The second operand's array is `W` transposed: at `(k, n)` it holds `W` at `(n, k)`. -/
theorem V_v2_at (c : Dev nD) (k : Fin 2048) (n : Fin 8192) :
    (V m c main_v2 : S2048x8192.Idx → EReal) (ix2 k n) = (m ((c : Thread nD τ).loc main_arg1) : S8192x2048.Idx → EReal) (ix2 n k) := by
  have e : (V m c main_v2 : S2048x8192.Idx → EReal)
      = transpose S2048x8192 [1, 0] (m ((c : Thread nD τ).loc main_arg1) : S8192x2048.Idx → EReal) transposes_S8192x2048_S2048x8192_1_0 := by
    dsimp only [V, hostOps0]; after_results; rfl
  rw [e]
  exact transpose_apply [1, 0] _ transposes_S8192x2048_S2048x8192_1_0 (ix2 k n) (ix2 n k) (fun b => match b with
    | ⟨0, _⟩ => rfl
    | ⟨1, _⟩ => rfl)

/-! ## The windows' blocks at a point, read at coordinates -/

/-- How the seven index maps move over the grid (decided over the sixteen points): the row block of `x` is the result's row
    block, the column block of `Wᵀ` and of the four vectors is the result's column block, and both stay below 4. -/
theorem idx_facts : ∀ t : Fin cfg0.N,
    win0_0.index t (0 : Fin 2) = win0_6.index t (0 : Fin 2) ∧ win0_0.index t (1 : Fin 2) = 0
    ∧ win0_1.index t (0 : Fin 2) = 0 ∧ win0_1.index t (1 : Fin 2) = win0_6.index t (1 : Fin 2)
    ∧ win0_2.index t (0 : Fin 1) = win0_6.index t (1 : Fin 2)
    ∧ win0_3.index t (0 : Fin 1) = win0_6.index t (1 : Fin 2)
    ∧ win0_4.index t (0 : Fin 1) = win0_6.index t (1 : Fin 2)
    ∧ win0_5.index t (0 : Fin 1) = win0_6.index t (1 : Fin 2)
    ∧ win0_6.index t (0 : Fin 2) ≤ 3 ∧ win0_6.index t (1 : Fin 2) ≤ 3 :=
  (by decide +kernel : ∀ t : Fin grid0.N, _)

/-- Every block of the result is some point's. -/
theorem idx_onto : ∀ (q0 : Fin 4) (q1 : Fin 4), ∃ t : Fin cfg0.N, win0_6.index t = ![q0.val, q1.val] :=
  (by decide +kernel : ∀ (q0 : Fin 4) (q1 : Fin 4), ∃ t : Fin grid0.N, win0_6.index t = ![q0.val, q1.val])

theorem blk0_at (c : Dev nD) (t : Fin cfg0.N) (p : Fin 1024) (k : Fin 2048) (i : S4096x2048.Idx)
    (h0 : (i 0).val = win0_0.index t (0 : Fin 2) * 1024 + p.val) (h1 : (i 1).val = win0_0.index t (1 : Fin 2) * 2048 + k.val) :
    (iblk m c 0 t : Vec Ideal S1024x2048 .bf16) (ix2 p k) = (V m c main_v0 : S4096x2048.Idx → EReal) i := by
  unfold iblk
  rw [View.read_apply]
  show (V m c main_v0 : S4096x2048.Idx → EReal) _ = (V m c main_v0 : S4096x2048.Idx → EReal) _
  refine congrArg (V m c main_v0 : S4096x2048.Idx → EReal) (funext fun a => Fin.ext ?_)
  match a with
  | ⟨0, _⟩ => show win0_0.index t (0 : Fin 2) * 1024 + 1 * p.val = (i 0).val; omega
  | ⟨1, _⟩ => show win0_0.index t (1 : Fin 2) * 2048 + 1 * k.val = (i 1).val; omega

theorem blk1_at (c : Dev nD) (t : Fin cfg0.N) (k : Fin 2048) (q : Fin 2048) (i : S2048x8192.Idx)
    (h0 : (i 0).val = win0_1.index t (0 : Fin 2) * 2048 + k.val) (h1 : (i 1).val = win0_1.index t (1 : Fin 2) * 2048 + q.val) :
    (iblk m c 1 t : Vec Ideal S2048x2048 .bf16) (ix2 k q) = (V m c main_v2 : S2048x8192.Idx → EReal) i := by
  unfold iblk
  rw [View.read_apply]
  show (V m c main_v2 : S2048x8192.Idx → EReal) _ = (V m c main_v2 : S2048x8192.Idx → EReal) _
  refine congrArg (V m c main_v2 : S2048x8192.Idx → EReal) (funext fun a => Fin.ext ?_)
  match a with
  | ⟨0, _⟩ => show win0_1.index t (0 : Fin 2) * 2048 + 1 * k.val = (i 0).val; omega
  | ⟨1, _⟩ => show win0_1.index t (1 : Fin 2) * 2048 + 1 * q.val = (i 1).val; omega

theorem blk2_at (c : Dev nD) (t : Fin cfg0.N) (q : Fin 2048) (i : S8192.Idx)
    (h0 : (i 0).val = win0_2.index t (0 : Fin 1) * 2048 + q.val) :
    (iblk m c 2 t : Vec Ideal S2048 .f32) (ix1 q) = (m ((c : Thread nD τ).loc main_arg2) : S8192.Idx → EReal) i := by
  rw [← V_main_arg2 m c]
  unfold iblk
  rw [View.read_apply]
  show (V m c main_arg2 : S8192.Idx → EReal) _ = (V m c main_arg2 : S8192.Idx → EReal) _
  refine congrArg (V m c main_arg2 : S8192.Idx → EReal) (funext fun a => Fin.ext ?_)
  match a with
  | ⟨0, _⟩ => show win0_2.index t (0 : Fin 1) * 2048 + 1 * q.val = (i 0).val; omega

theorem blk3_at (c : Dev nD) (t : Fin cfg0.N) (q : Fin 2048) (i : S8192.Idx)
    (h0 : (i 0).val = win0_3.index t (0 : Fin 1) * 2048 + q.val) :
    (iblk m c 3 t : Vec Ideal S2048 .f32) (ix1 q) = (m ((c : Thread nD τ).loc main_arg3) : S8192.Idx → EReal) i := by
  rw [← V_main_arg3 m c]
  unfold iblk
  rw [View.read_apply]
  show (V m c main_arg3 : S8192.Idx → EReal) _ = (V m c main_arg3 : S8192.Idx → EReal) _
  refine congrArg (V m c main_arg3 : S8192.Idx → EReal) (funext fun a => Fin.ext ?_)
  match a with
  | ⟨0, _⟩ => show win0_3.index t (0 : Fin 1) * 2048 + 1 * q.val = (i 0).val; omega

theorem blk4_at (c : Dev nD) (t : Fin cfg0.N) (q : Fin 2048) (i : S8192.Idx)
    (h0 : (i 0).val = win0_4.index t (0 : Fin 1) * 2048 + q.val) :
    (iblk m c 4 t : Vec Ideal S2048 .f32) (ix1 q) = (m ((c : Thread nD τ).loc main_arg4) : S8192.Idx → EReal) i := by
  rw [← V_main_arg4 m c]
  unfold iblk
  rw [View.read_apply]
  show (V m c main_arg4 : S8192.Idx → EReal) _ = (V m c main_arg4 : S8192.Idx → EReal) _
  refine congrArg (V m c main_arg4 : S8192.Idx → EReal) (funext fun a => Fin.ext ?_)
  match a with
  | ⟨0, _⟩ => show win0_4.index t (0 : Fin 1) * 2048 + 1 * q.val = (i 0).val; omega

theorem blk5_at (c : Dev nD) (t : Fin cfg0.N) (q : Fin 2048) (i : S8192.Idx)
    (h0 : (i 0).val = win0_5.index t (0 : Fin 1) * 2048 + q.val) :
    (iblk m c 5 t : Vec Ideal S2048 .f32) (ix1 q) = (m ((c : Thread nD τ).loc main_arg5) : S8192.Idx → EReal) i := by
  rw [← V_main_arg5 m c]
  unfold iblk
  rw [View.read_apply]
  show (V m c main_arg5 : S8192.Idx → EReal) _ = (V m c main_arg5 : S8192.Idx → EReal) _
  refine congrArg (V m c main_arg5 : S8192.Idx → EReal) (funext fun a => Fin.ext ?_)
  match a with
  | ⟨0, _⟩ => show win0_5.index t (0 : Fin 1) * 2048 + 1 * q.val = (i 0).val; omega

/-! ## What a point writes back, and the whole array -/

/-- The result array's function of the arguments. -/
abbrev result (c : Dev nD) : S4096x8192.Idx → EReal :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- WHAT POINT `t` WRITES BACK is block `t` of `G` of the argument arrays. -/
theorem flushed_eq (c : Dev nD) (t : Fin cfg0.N) :
    (dats m 0 c).flushed 6 t = ((cfg0.win 6).blk t).view.read (Elt Ideal) (result m c) := by
  rw [Cert.KernelIdeal.Value.flushed6]
  unfold out0_6
  rw [View.canon_unit_zero hz2]
  simp only [View.ld_unit_zero (S := S1024x2048) hz2, View.ld_unit_zero (S := S2048x2048) hz2, View.ld_unit_zero (S := S2048) hz1]
  obtain ⟨e00, e01, e10, e11, e2, e3, e4, e5, ha, hc⟩ := idx_facts t
  funext y
  obtain ⟨p, q, rfl⟩ : ∃ (p : Fin 1024) (q : Fin 2048), y = ix2 p q := ⟨y 0, y 1, eq_ix2 y⟩
  show k0_pay1 (F := Ideal) (k0_pay2 (iblk m c 0 t) (iblk m c 1 t) (iblk m c 2 t) (iblk m c 3 t) (iblk m c 4 t) (iblk m c 5 t))
      (k0_pay3 (iblk m c 0 t) (iblk m c 1 t) (iblk m c 2 t) (iblk m c 3 t) (iblk m c 4 t) (iblk m c 5 t)) (ix2 p q)
    = result m c (((cfg0.win 6).blk t).view.emb (ix2 p q))
  refine (Body.body_at (iblk m c 0 t) (iblk m c 1 t) (iblk m c 2 t) (iblk m c 3 t) (iblk m c 4 t) (iblk m c 5 t) p q).trans ?_
  refine block_eq _ _ _ _ _ _ _ _ _ _ _ _ ⟨win0_6.index t (0 : Fin 2), by omega⟩ ⟨win0_6.index t (1 : Fin 2), by omega⟩
    ?_ ?_ ?_ ?_ ?_ ?_ p q _ ?_ ?_
  · intro p' k
    refine (blk0_at m c t p' k (ix2 (rowOf ⟨win0_6.index t (0 : Fin 2), by omega⟩ p') k) ?_ ?_).trans (congrFun (V_v0 m c) _)
    · show win0_6.index t (0 : Fin 2) * 1024 + p'.val = _; omega
    · show k.val = _; omega
  · intro k q'
    refine (blk1_at m c t k q' (ix2 k (colOf ⟨win0_6.index t (1 : Fin 2), by omega⟩ q')) ?_ ?_).trans (V_v2_at m c _ _)
    · show k.val = _; omega
    · show win0_6.index t (1 : Fin 2) * 2048 + q'.val = _; omega
  · intro q'
    exact blk2_at m c t q' _ (by show win0_6.index t (1 : Fin 2) * 2048 + q'.val = _; omega)
  · intro q'
    exact blk3_at m c t q' _ (by show win0_6.index t (1 : Fin 2) * 2048 + q'.val = _; omega)
  · intro q'
    exact blk4_at m c t q' _ (by show win0_6.index t (1 : Fin 2) * 2048 + q'.val = _; omega)
  · intro q'
    exact blk5_at m c t q' _ (by show win0_6.index t (1 : Fin 2) * 2048 + q'.val = _; omega)
  · show win0_6.index t (0 : Fin 2) * 1024 + 1 * p.val = win0_6.index t (0 : Fin 2) * 1024 + p.val; omega
  · show win0_6.index t (1 : Fin 2) * 2048 + 1 * q.val = win0_6.index t (1 : Fin 2) * 2048 + q.val; omega

/-- An index of the array is in point `t`'s block iff each coordinate is in the block's range on its axis. -/
theorem mem_blk (t : Fin cfg0.N) (i : S4096x8192.Idx) :
    i ∈ ((cfg0.win 6).blk t).view.set ↔ ∀ a : Fin 2, win0_6.index t a * S1024x2048.size a ≤ (i a).val
      ∧ (i a).val < win0_6.index t a * S1024x2048.size a + S1024x2048.size a := by
  show i ∈ ((View.whole main_v3).slice (win0_6.rect t)).set ↔ _
  rw [View.set_slice_whole, Rect.mem_set_unit]
  exact Iff.rfl

/-- The sixteen blocks tile the result array: entry `(r, n)` is in block `(r / 1024, n / 2048)`. -/
theorem covered (i : S4096x8192.Idx) : ∃ t : Fin cfg0.N, (cfg0.win 6).flush t = true ∧ i ∈ ((cfg0.win 6).blk t).view.set := by
  have hi0 : (i 0).val < 4096 := (i 0).isLt
  have hi1 : (i 1).val < 8192 := (i 1).isLt
  obtain ⟨t, ht⟩ := idx_onto ⟨(i 0).val / 1024, by omega⟩ ⟨(i 1).val / 2048, by omega⟩
  have q0 : win0_6.index t (0 : Fin 2) = (i 0).val / 1024 := congrFun ht 0
  have q1 : win0_6.index t (1 : Fin 2) = (i 1).val / 2048 := congrFun ht 1
  refine ⟨t, flush0_6 t, ?_⟩
  rw [mem_blk]
  intro a
  match a with
  | ⟨0, _⟩ => show win0_6.index t (0 : Fin 2) * 1024 ≤ (i 0).val ∧ (i 0).val < win0_6.index t (0 : Fin 2) * 1024 + 1024; omega
  | ⟨1, _⟩ => show win0_6.index t (1 : Fin 2) * 2048 ≤ (i 1).val ∧ (i 1).val < win0_6.index t (1 : Fin 2) * 2048 + 2048; omega

/-- THE ARRAY after the run is `G` of the argument arrays. -/
theorem final (c : Dev nD) : (dats m 0 c).arrAt 6 cfg0.N = result m c :=
  (dats m 0 c).arrAt_eq_of_cover 6 (result m c) (fun t _ => flushed_eq m c t) covered

/-- THE KERNEL'S RUN: every execution ends with the result array at `G` of the arguments and the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Cert.KernelIdeal.Value.run_blocks m ρ)

end Cert.GroupNormGate.Blocks

end
-- ==== Proof.RefValue.lean ====
/-
  The reference program's result, read one operation at a time, is the function `G` of the argument arrays.

  The reference forms the linear layer over the whole [4096, 8192] array, reshapes each row into sixteen groups of 512
  columns, takes each group's mean and variance as sums over the group's 512 columns divided by 512, centres and scales,
  reshapes back, and applies the affine map and the two gates, each gate written as `u · (1 / (1 + exp (-u)))`, which is
  `u · logistic u` by the definition of the logistic function on the extended reals.
-/
import proofs.«150082_j19688130085476_2_alg».proof.Proof.Gen.ReferenceIdeal.Read
import proofs.«150082_j19688130085476_2_alg».proof.Proof.Spec
import Idealize.ShloMosaic.Lib.IdealHost

noncomputable section

namespace Cert.GroupNormGate.Ref

open Cert.ReferenceIdeal Cert.ReferenceIdeal.Read Idealize.ShloMosaic Idealize.ShloMosaic.ValueIdx Cert.GroupNormGate

variable (x0 : (⟨S4096x2048, .f32⟩ : BufTy).Contents (Elt Ideal)) (x1 : (⟨S8192x2048, .f32⟩ : BufTy).Contents (Elt Ideal))
  (x2 x3 x4 x5 : (⟨S8192, .f32⟩ : BufTy).Contents (Elt Ideal))

/-- The linear layer at row `r`, column `n`: the contraction runs over the 2048 columns of `x`'s row `r` and of `W`'s
    row `n` (the reference transposes `W` first, so its right operand is read at `(k, n)`, which is `W` at `(n, k)`). -/
theorem v4_at (r : Fin 4096) (n : Fin 8192) : val_main_v4 (F := Ideal) x0 x1 x2 (ix2 r n) = lin x0 x1 x2 r n := by
  rw [val_main_v4_apply, val_main_v1_apply, val_main_v3_apply, val_main_v2_apply]
  simp only [val_main_v0_apply]
  have el : ∀ k : Fin 2048, lidx_main_v1 (ix2 r n) k = ix2 r k := fun k =>
    funext fun a => by match a with | ⟨0, _⟩ => rfl | ⟨1, _⟩ => rfl
  have er : ∀ k : Fin 2048, idx_main_v0 (ridx_main_v1 (ix2 r n) k) = ix2 n k := fun k =>
    funext fun a => by match a with | ⟨0, _⟩ => rfl | ⟨1, _⟩ => rfl
  have eb : idx_main_v2 (idx_main_v3 (ix2 r n)) = ix1 n :=
    funext fun a => by match a with | ⟨0, _⟩ => rfl
  simp only [el, er, eb]
  rfl

/-- After the reshape, entry `j` of group `g` of row `r` is the linear layer at column `g · 512 + j`. -/
theorem v5_at (r : Fin 4096) (g : Fin 16) (j : Fin 512) :
    val_main_v5 (F := Ideal) x0 x1 x2 (ix3 r g j) = pre x0 x1 x2 r g j := by
  rw [val_main_v5_apply]
  have e : idx_main_v5 (ix3 r g j) = ix2 r (col16 g j) := funext fun a => Fin.ext (by
    have hr := r.isLt; have hg := g.isLt; have hj := j.isLt
    match a with
    | ⟨0, _⟩ => show ((r.val * 16 + g.val) * 512 + j.val) / 8192 = r.val; omega
    | ⟨1, _⟩ => show ((r.val * 16 + g.val) * 512 + j.val) % 8192 = g.val * 512 + j.val; omega)
  rw [e, v4_at]
  rfl

/-- The group's mean, kept on a unit axis. -/
theorem v9_at (r : Fin 4096) (g : Fin 16) (u : Fin 1) :
    val_main_v9 (F := Ideal) x0 x1 x2 (ix3 r g u) = mean (pre x0 x1 x2) r g := by
  rw [val_main_v9_apply, val_main_v7_apply, val_main_v6_apply, val_main_v8_apply, val_main_cst_0_apply, val_main_cst_apply]
  have e : ∀ k : Fin 512, idx_main_v6 (idx_main_v7 (ix3 r g u)) k = ix3 r g k := fun k =>
    funext fun a => by match a with | ⟨0, _⟩ => rfl | ⟨1, _⟩ => rfl | ⟨2, _⟩ => rfl
  simp only [e, v5_at]
  show Ideal.div (Ideal.ofBits .f32 0x00000000#32 + _) _ = _
  rw [Ideal.ofBits_zero_f32, zero_add]
  rfl

/-- An entry less its group's mean. -/
theorem v11_at (r : Fin 4096) (g : Fin 16) (j : Fin 512) :
    val_main_v11 (F := Ideal) x0 x1 x2 (ix3 r g j) = pre x0 x1 x2 r g j - mean (pre x0 x1 x2) r g := by
  rw [val_main_v11_apply, val_main_v10_apply, v5_at]
  have e : idx_main_v10 (ix3 r g j) = ix3 r g (0 : Fin 1) :=
    funext fun a => by match a with | ⟨0, _⟩ => rfl | ⟨1, _⟩ => rfl | ⟨2, _⟩ => rfl
  rw [e, v9_at]
  rfl

/-- The group's variance, kept on a unit axis. -/
theorem v16_at (r : Fin 4096) (g : Fin 16) (u : Fin 1) :
    val_main_v16 (F := Ideal) x0 x1 x2 (ix3 r g u) = var (pre x0 x1 x2) r g := by
  rw [val_main_v16_apply, val_main_v14_apply, val_main_v13_apply, val_main_v15_apply, val_main_cst_2_apply, val_main_cst_1_apply]
  have e : ∀ k : Fin 512, idx_main_v13 (idx_main_v14 (ix3 r g u)) k = ix3 r g k := fun k =>
    funext fun a => by match a with | ⟨0, _⟩ => rfl | ⟨1, _⟩ => rfl | ⟨2, _⟩ => rfl
  simp only [e, val_main_v12_apply, v11_at]
  show Ideal.div (Ideal.ofBits .f32 0x00000000#32 + _) _ = _
  rw [Ideal.ofBits_zero_f32, zero_add]
  rfl

/-- The centred entry times the reciprocal square root of the variance plus the fixed word. -/
theorem v23_at (r : Fin 4096) (g : Fin 16) (j : Fin 512) :
    val_main_v23 (F := Ideal) x0 x1 x2 (ix3 r g j) = nrm (pre x0 x1 x2) r g j := by
  rw [val_main_v23_apply, val_main_v18_apply, val_main_v17_apply, val_main_v22_apply, val_main_v21_apply, val_main_v20_apply,
    val_main_v19_apply, val_main_cst_3_apply, v5_at]
  have e17 : idx_main_v17 (ix3 r g j) = ix3 r g (0 : Fin 1) :=
    funext fun a => by match a with | ⟨0, _⟩ => rfl | ⟨1, _⟩ => rfl | ⟨2, _⟩ => rfl
  have e22 : idx_main_v22 (ix3 r g j) = ix3 r g (0 : Fin 1) :=
    funext fun a => by match a with | ⟨0, _⟩ => rfl | ⟨1, _⟩ => rfl | ⟨2, _⟩ => rfl
  rw [e17, e22, v9_at, v16_at]
  rfl

/-- Reshaped back to a row: column `n` is entry `n % 512` of group `n / 512`. -/
theorem v24_at (r : Fin 4096) (n : Fin 8192) :
    val_main_v24 (F := Ideal) x0 x1 x2 (ix2 r n) = nrm (pre x0 x1 x2) r (grp16 n) (lane16 n) := by
  rw [val_main_v24_apply]
  have e : idx_main_v24 (ix2 r n) = ix3 r (grp16 n) (lane16 n) := funext fun a => Fin.ext (by
    have hr := r.isLt; have hn := n.isLt
    match a with
    | ⟨0, _⟩ => show (r.val * 8192 + n.val) / 8192 = r.val; omega
    | ⟨1, _⟩ => show (r.val * 8192 + n.val) / 512 % 16 = n.val / 512; omega
    | ⟨2, _⟩ => show (r.val * 8192 + n.val) % 512 = n.val % 512; omega)
  rw [e, v23_at]

/-- THE REFERENCE'S RESULT is `G` of its arguments. The reference spells each gate `u · (1 / (1 + exp (-u)))` with the
    word of 1.0; that quotient is the logistic function's definition. -/
theorem result_eq : val_main_v47 (F := Ideal) x0 x1 x2 x3 x4 x5 = G x0 x1 x2 x3 x4 x5 := by
  funext i
  obtain ⟨r, n, rfl⟩ : ∃ (r : Fin 4096) (n : Fin 8192), i = ix2 r n := ⟨i 0, i 1, eq_ix2 i⟩
  rw [val_main_v47_apply, val_main_v46_apply, val_main_v45_apply, val_main_cst_7_apply, val_main_v44_apply, val_main_v43_apply,
    val_main_cst_6_apply, val_main_v42_apply, val_main_v41_apply, val_main_v40_apply, val_main_v39_apply, val_main_v38_apply,
    val_main_v37_apply, val_main_v36_apply, val_main_v35_apply, val_main_cst_5_apply, val_main_v34_apply, val_main_v33_apply,
    val_main_cst_4_apply, val_main_v32_apply, val_main_v31_apply, val_main_v30_apply, val_main_v29_apply, val_main_v28_apply,
    val_main_v27_apply, val_main_v26_apply, val_main_v25_apply, v24_at]
  have e3 : idx_main_v25 (idx_main_v26 (ix2 r n)) = ix1 n := funext fun a => by match a with | ⟨0, _⟩ => rfl
  have e4 : idx_main_v28 (idx_main_v29 (ix2 r n)) = ix1 n := funext fun a => by match a with | ⟨0, _⟩ => rfl
  have e5 : idx_main_v38 (idx_main_v39 (ix2 r n)) = ix1 n := funext fun a => by match a with | ⟨0, _⟩ => rfl
  rw [e3, e4, e5]
  simp only [Ideal.ofBits_def, Ideal.ofBits_one_f32]
  rfl

end Cert.GroupNormGate.Ref

end
-- ==== Proof.lean ====
/-
  The claim: the kernel (a linear layer, group normalization in sixteen groups of 512 columns, an affine map and two
  gates `u · logistic u`, computed block by block over a 4 × 4 grid) and its reference (the same operations on the whole
  arrays) end with equal results on the extended reals.

  Both results are the one function `G` of the argument arrays (Proof/Spec.lean): the reference's by reading its
  operations one at a time (Proof/RefValue.lean), the kernel's because each grid point writes a block of `G` — every
  group of 512 columns lies inside one block, so a block's means and variances are the array's — and the blocks tile the
  result (Proof/KernelBody.lean, Proof/KernelValue.lean). The two programs apply the same exact operations in the same
  order, so no law of arithmetic, and hence no finiteness of the inputs, is used. The three frames are the programs'
  runs with the result forgotten; the idealized kernel is the kernel's own text read on the extended reals, so there is
  nothing to preserve.
-/
import proofs.«150082_j19688130085476_2_alg».proof.Defs
import proofs.«150082_j19688130085476_2_alg».proof.Proof.Gen.Kernel
import proofs.«150082_j19688130085476_2_alg».proof.Proof.Gen.Kernel.Frame
import proofs.«150082_j19688130085476_2_alg».proof.Proof.Gen.KernelIdeal
import proofs.«150082_j19688130085476_2_alg».proof.Proof.Gen.KernelIdeal.Frame
import proofs.«150082_j19688130085476_2_alg».proof.Proof.Gen.KernelIdeal.Value
import proofs.«150082_j19688130085476_2_alg».proof.Proof.Gen.ReferenceIdeal
import proofs.«150082_j19688130085476_2_alg».proof.Proof.Gen.ReferenceIdeal.Run
import proofs.«150082_j19688130085476_2_alg».proof.Proof.Gen.ReferenceIdeal.Read
import proofs.«150082_j19688130085476_2_alg».proof.Proof.Gen.Pre_finite_inputs
import proofs.«150082_j19688130085476_2_alg».proof.Proof.KernelValue
import proofs.«150082_j19688130085476_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at `G` of arguments that agree. -/
theorem algebraic : Cert.algebraic_KernelIdeal_ReferenceIdeal := by
  intro m ρ m' ρ' _ hagree
  refine ⟨fun c => Cert.GroupNormGate.Blocks.result m c, Cert.GroupNormGate.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v47_eq, Cert.GroupNormGate.Ref.result_eq,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
